-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S1024x128x128 : Shape := ⟨3, ![1024, 128, 128]⟩
abbrev S1024x256x256 : Shape := ⟨3, ![1024, 256, 256]⟩
abbrev S8x128x128 : Shape := ⟨3, ![8, 128, 128]⟩
abbrev S8x256x256 : Shape := ⟨3, ![8, 256, 256]⟩
abbrev S1x128x128 : Shape := ⟨3, ![1, 128, 128]⟩
abbrev S128x128 : Shape := ⟨2, ![128, 128]⟩
abbrev S128x128x1 : Shape := ⟨3, ![128, 128, 1]⟩
abbrev S128x128x2 : Shape := ⟨3, ![128, 128, 2]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256x256 : Shape := ⟨3, ![1, 256, 256]⟩
abbrev S16x64x256x256 : Shape := ⟨4, ![16, 64, 256, 256]⟩

abbrev nBuf : Space → Nat
  | .hbm => 10
  | .vmem => 10
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S1024x128x128, .f32⟩
  | .hbm, ⟨5, _⟩ => ⟨S1024x128x128, .f32⟩
  | .hbm, ⟨6, _⟩ => ⟨S1024x128x128, .f32⟩
  | .hbm, ⟨7, _⟩ => ⟨S1024x128x128, .f32⟩
  | .hbm, ⟨8, _⟩ => ⟨S1024x256x256, .f32⟩
  | .hbm, ⟨9, _⟩ => ⟨S16x64x256x256, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x256x256, .f32⟩
  | .local _ .vmem, ⟨9, _⟩ => ⟨S8x256x256, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1 : Index := Scalar.indexCast arg6
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v45 : Index := Scalar.indexCast arg6
  let c0_11 : Index := 0#32
  let c0_12 : Index := 0#32
  ![v45.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x64x128x128_S1024x128x128 : S16x64x128x128.ShapeCasts S1024x128x128
  h_S1x128x128 : 0 < S1x128x128.numel
  shapeCasts_S1x128x128_S128x128 : S1x128x128.ShapeCasts S128x128
  shapeCasts_S128x128_S128x128x1 : S128x128.ShapeCasts S128x128x1
  concatenates_S128x128x1_S128x128x1_S128x128x2_d2 : Shape.Concatenates [S128x128x1, S128x128x1] S128x128x2 2
  shapeCasts_S128x128x2_S128x256 : S128x128x2.ShapeCasts S128x256
  shapeCasts_S128x256_S128x1x256 : S128x256.ShapeCasts S128x1x256
  concatenates_S128x1x256_S128x1x256_S128x2x256_d1 : Shape.Concatenates [S128x1x256, S128x1x256] S128x2x256 1
  shapeCasts_S128x2x256_S256x256 : S128x2x256.ShapeCasts S256x256
  h_S1x256x256 : 0 < S1x256x256.numel
  shapeCasts_S1x256x256_S256x256 : S1x256x256.ShapeCasts S256x256
  shapeCasts_S256x256_S1x256x256 : S256x256.ShapeCasts S1x256x256
  shapeCasts_S1024x256x256_S16x64x256x256 : S1024x256x256.ShapeCasts S16x64x256x256
  hrank0 : 0 < grid0.rank
  k0_t1_ok : k0_t1_loop.OK
  k0_off1_inb : ∀ k0_t1 : Fin k0_t1_loop.trips, ∀ a, (k0_off1 k0_t1) a + S1x128x128.size a ≤ S8x128x128.size a
  k0_off2_inb : ∀ k0_t1 : Fin k0_t1_loop.trips, ∀ a, (k0_off2 k0_t1) a + S1x256x256.size a ≤ S8x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x128.size a ≤ S1024x128x128.size a
  hwx0_0 : ∀ i : grid0.Coords, EltTy.bits .f32 = 32 ∨ (Rect.block (s := S1024x128x128) S8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S1024x128x128.size a
  hwx0_1 : ∀ i : grid0.Coords, EltTy.bits .f32 = 32 ∨ (Rect.block (s := S1024x128x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S1024x128x128.size a
  hwx0_2 : ∀ i : grid0.Coords, EltTy.bits .f32 = 32 ∨ (Rect.block (s := S1024x128x128) S8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S1024x128x128.size a
  hwx0_3 : ∀ i : grid0.Coords, EltTy.bits .f32 = 32 ∨ (Rect.block (s := S1024x128x128) S8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S1024x256x256.size a
  hwx0_4 : ∀ i : grid0.Coords, EltTy.bits .f32 = 32 ∨ (Rect.block (s := S1024x256x256) S8x256x256.size (cc0_transform_4 i) (hinb0_4 i)).WholeWords (EltTy.packing .f32)

variable [Facts₀]

abbrev win0_0 : Pipeline.Window sig grid0 :=
  Pipeline.Window.ofSpec (Memref.whole main_v0) S8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S_, .f32⟩
  | .hbm, ⟨8, _⟩ => ⟨S16x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128x128, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S_, .f32⟩
  | .hbm, ⟨26, _⟩ => ⟨S16x64x128x128, .f32⟩
  | .hbm, ⟨27, _⟩ => ⟨S16x64x128x128, .f32⟩
  | .hbm, ⟨28, _⟩ => ⟨S16x64x128x128x1, .f32⟩
  | .hbm, ⟨29, _⟩ => ⟨S16x64x128x128x1, .f32⟩
  | .hbm, ⟨30, _⟩ => ⟨S16x64x128x128x2, .f32⟩
  | .hbm, ⟨31, _⟩ => ⟨S16x64x128x256, .f32⟩
  | .hbm, ⟨32, _⟩ => ⟨S16x64x128x128x1, .f32⟩
  | .hbm, ⟨33, _⟩ => ⟨S16x64x128x128x1, .f32⟩
  | .hbm, ⟨34, _⟩ => ⟨S16x64x128x128x2, .f32⟩
  | .hbm, ⟨35, _⟩ => ⟨S16x64x128x256, .f32⟩
  | .hbm, ⟨36, _⟩ => ⟨S16x64x128x1x256, .f32⟩
  | .hbm, ⟨37, _⟩ => ⟨S16x64x128x1x256, .f32⟩
  | .hbm, ⟨38, _⟩ => ⟨S16x64x128x2x256, .f32⟩
  | .hbm, ⟨39, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.HaarSpec.lean ====
/-
  The inverse Haar step as one function of the four coefficient arrays.

  Each output pixel (R, Q) of an image of doubled height and width depends on ONE coefficient position
  (R / 2, Q / 2): on an even row and even column it is (a + v + h + d) / 2, on an even row and odd column
  (a - v + h - d) / 2, on an odd row and even column (a + v - h - d) / 2, on an odd row and odd column
  (a - v - h + d) / 2 — the sums taken left to right, the halving a product with the binary word of 0.5.
  `quad` is that choice by the two parities; `synth3` applies it to a stack of n images, `synth4` to a
  [16, 64] batch of them. Both programs are shown to compute `synth4`; no law of arithmetic is needed,
  only where each element sits.
-/
import Idealize.ShloMosaic.PureOps.Ideal
import Idealize.ShloMosaic.Lib.ValueIdx

noncomputable section

namespace Cert.Haar

open Idealize.ShloMosaic Idealize.ShloMosaic.ValueIdx

/-- One half, as the binary32 word both programs spell (never evaluated: the same word on both sides). -/
abbrev half : EReal := Ideal.ofBits .f32 0x3F000000#32

/-- The four combinations, chosen by the parity of the row (`α`) and of the column (`β`). -/
def quad (α β : Nat) (a h v d : EReal) : EReal :=
  if α = 0 then (if β = 0 then (a + v + h + d) * half else (a - v + h - d) * half)
  else (if β = 0 then (a + v - h - d) * half else (a - v - h + d) * half)

theorem quad_ee (a h v d : EReal) : quad 0 0 a h v d = (a + v + h + d) * half := by
  unfold quad; rw [if_pos rfl, if_pos rfl]
theorem quad_eo (a h v d : EReal) : quad 0 1 a h v d = (a - v + h - d) * half := by
  unfold quad; rw [if_pos rfl, if_neg (by decide)]
theorem quad_oe (a h v d : EReal) : quad 1 0 a h v d = (a + v - h - d) * half := by
  unfold quad; rw [if_neg (by decide), if_pos rfl]
theorem quad_oo (a h v d : EReal) : quad 1 1 a h v d = (a - v - h + d) * half := by
  unfold quad; rw [if_neg (by decide), if_neg (by decide)]

/-- The coefficient position under pixel coordinate `r` of a doubled axis. -/
abbrev halfIdx (r : Fin 256) : Fin 128 := ⟨r.val / 2, by have := r.isLt; omega⟩

/-- A stack of `n` images: pixel (k, R, Q) from the coefficients at (k, R / 2, Q / 2). -/
def synth3 (n : Nat) (a h v d : (⟨3, ![n, 128, 128]⟩ : Shape).Idx → EReal) :
    (⟨3, ![n, 256, 256]⟩ : Shape).Idx → EReal := fun y =>
  quad ((y 1).val % 2) ((y 2).val % 2)
    (a (ix3 (n0 := n) (n1 := 128) (n2 := 128) (y 0) (halfIdx (y 1)) (halfIdx (y 2))))
    (h (ix3 (n0 := n) (n1 := 128) (n2 := 128) (y 0) (halfIdx (y 1)) (halfIdx (y 2))))
    (v (ix3 (n0 := n) (n1 := 128) (n2 := 128) (y 0) (halfIdx (y 1)) (halfIdx (y 2))))
    (d (ix3 (n0 := n) (n1 := 128) (n2 := 128) (y 0) (halfIdx (y 1)) (halfIdx (y 2))))

/-- The [16, 64] batch: pixel (b, c, R, Q) from the coefficients at (b, c, R / 2, Q / 2). -/
def synth4 (a h v d : (⟨4, ![16, 64, 128, 128]⟩ : Shape).Idx → EReal) :
    (⟨4, ![16, 64, 256, 256]⟩ : Shape).Idx → EReal := fun i =>
  quad ((i 2).val % 2) ((i 3).val % 2)
    (a (ix4 (n0 := 16) (n1 := 64) (n2 := 128) (n3 := 128) (i 0) (i 1) (halfIdx (i 2)) (halfIdx (i 3))))
    (h (ix4 (n0 := 16) (n1 := 64) (n2 := 128) (n3 := 128) (i 0) (i 1) (halfIdx (i 2)) (halfIdx (i 3))))
    (v (ix4 (n0 := 16) (n1 := 64) (n2 := 128) (n3 := 128) (i 0) (i 1) (halfIdx (i 2)) (halfIdx (i 3))))
    (d (ix4 (n0 := 16) (n1 := 64) (n2 := 128) (n3 := 128) (i 0) (i 1) (halfIdx (i 2)) (halfIdx (i 3))))

end Cert.Haar

end
-- ==== Proof.LibUnitStack.lean ====
/-
  Two arrays stacked along a unit axis, read at an index.

  `jnp.stack([x₁, x₂], axis)` gives both arrays a new axis of extent 1 and joins them along it. Read at
  an index of the joined array, position 0 on that axis is the first array and position 1 the second, each
  at the index with the same coordinates off the axis (and 0, the only position there is, on it).
-/
import Idealize.ShloMosaic.Lib.Pipeline.Value

noncomputable section

namespace Cert.UnitStack

open Idealize.ShloMosaic

/-- A join of two arrays of one shape `s`, of extent 1 along the joined axis `a`, read at `j`: the first
    array where `j`'s coordinate on `a` is 0, the second elsewhere, at any index `i` of `s` that has
    `j`'s coordinates off the axis. -/
theorem concatenate_unit_pair_apply {α : Type} {t s : Shape} (a : Fin t.rank) (x₁ x₂ : s.Idx → α)
    (h : Shape.Concatenates [s, s] t a) (hr : s.rank = t.rank) (hs : s.size (a.cast hr.symm) = 1)
    (j : t.Idx) (i : s.Idx) (hi : ∀ b : Fin s.rank, b.cast hr ≠ a → (i b).val = (j (b.cast hr)).val) :
    concatenate t a [⟨s, x₁⟩, ⟨s, x₂⟩] h j = if (j a).val = 0 then x₁ i else x₂ i := by
  have h0 : (i (a.cast hr.symm)).val = 0 := by
    have := (i (a.cast hr.symm)).isLt; omega
  have hj : (j a).val < 2 := by
    have e := h.2.2
    simp only [List.map, dif_pos hr, List.sum_cons, List.sum_nil] at e
    have := (j a).isLt; omega
  by_cases hz : (j a).val = 0
  · rw [if_pos hz]
    refine concatenate_pair_apply_left a x₁ x₂ h j hr i (fun b => ?_)
    by_cases hb : b.cast hr = a
    · have eb : b = a.cast hr.symm := Fin.ext (by have := congrArg Fin.val hb; simpa using this)
      subst eb
      rw [h0]
      exact hz.symm
    · exact hi b hb
  · rw [if_neg hz]
    refine concatenate_pair_apply_right a x₁ x₂ h j hr hr i hi ?_
    rw [h0, hs]; omega

end Cert.UnitStack

end
-- ==== Proof.ImageInterleave.lean ====
/-
  One image's 2×2 interleave, read at a pixel.

  Stacking two [128, 128] arrays on a new last axis and flattening it away interleaves their COLUMNS:
  column Q of the [128, 256] result is column Q / 2 of the first array when Q is even, of the second when Q
  is odd. Stacking two [128, 256] arrays on a new middle axis and flattening it away interleaves their
  ROWS the same way. Composed, four [128, 128] arrays become one [256, 256] image whose pixel (R, Q) is
  taken from the array the two parities choose, at (R / 2, Q / 2).
-/
import Idealize.ShloMosaic.Lib.ValueIdx
import Idealize.ShloMosaic.Lib.Pipeline.Value
import proofs.«181428_j80736795230662_2_alg».proof.Proof.LibUnitStack

noncomputable section

namespace Cert.Haar

open Idealize.ShloMosaic Idealize.ShloMosaic.ValueIdx

/-- Row-major positions agree: (r, q, β) of [128, 128, 2] is (r, 2q + β) of [128, 256]. Two arrays given a unit
    last axis, joined along it and flattened: column `Q` comes from column `Q / 2` of the array `Q`'s parity picks. -/
theorem interleave_cols {α : Type} (x₁ x₂ : (⟨2, ![128, 128]⟩ : Shape).Idx → α)
    (hc1 : (⟨2, ![128, 128]⟩ : Shape).ShapeCasts ⟨3, ![128, 128, 1]⟩)
    (hcat : Shape.Concatenates [(⟨3, ![128, 128, 1]⟩ : Shape), ⟨3, ![128, 128, 1]⟩] ⟨3, ![128, 128, 2]⟩ 2)
    (hc2 : (⟨3, ![128, 128, 2]⟩ : Shape).ShapeCasts ⟨2, ![128, 256]⟩)
    (r : Fin 128) (Q : Fin 256) (hq : Q.val / 2 < 128) :
    shapeCast (⟨2, ![128, 256]⟩ : Shape)
        (concatenate (⟨3, ![128, 128, 2]⟩ : Shape) 2
          [⟨(⟨3, ![128, 128, 1]⟩ : Shape), shapeCast (⟨3, ![128, 128, 1]⟩ : Shape) x₁ hc1⟩,
           ⟨(⟨3, ![128, 128, 1]⟩ : Shape), shapeCast (⟨3, ![128, 128, 1]⟩ : Shape) x₂ hc1⟩] hcat) hc2 (ix2 r Q)
      = if Q.val % 2 = 0 then x₁ (ix2 r ⟨Q.val / 2, hq⟩) else x₂ (ix2 r ⟨Q.val / 2, hq⟩) := by
  have hβ : Q.val % 2 < 2 := Nat.mod_lt _ (by decide)
  refine (shapeCast_apply _ hc2 (ix2 r Q) (ix3 r (⟨Q.val / 2, hq⟩ : Fin 128) (⟨Q.val % 2, hβ⟩ : Fin 2)) ?_).trans ?_
  · rw [Shape.rowMajor_val_three, Shape.rowMajor_val_two]
    show (r.val * 128 + Q.val / 2) * 2 + Q.val % 2 = r.val * 256 + Q.val
    omega
  refine (Cert.UnitStack.concatenate_unit_pair_apply 2 _ _ hcat rfl rfl
    (ix3 r (⟨Q.val / 2, hq⟩ : Fin 128) (⟨Q.val % 2, hβ⟩ : Fin 2))
    (ix3 r (⟨Q.val / 2, hq⟩ : Fin 128) (0 : Fin 1)) ?_).trans ?_
  · intro b hb
    match b with
    | ⟨0, _⟩ => rfl
    | ⟨1, _⟩ => rfl
    | ⟨2, _⟩ => exact absurd rfl hb
  have e : ∀ x : (⟨2, ![128, 128]⟩ : Shape).Idx → α,
      shapeCast (⟨3, ![128, 128, 1]⟩ : Shape) x hc1 (ix3 r (⟨Q.val / 2, hq⟩ : Fin 128) (0 : Fin 1))
        = x (ix2 r ⟨Q.val / 2, hq⟩) := fun x =>
    shapeCast_apply x hc1 _ _ (by
      rw [Shape.rowMajor_val_two, Shape.rowMajor_val_three]
      show r.val * 128 + Q.val / 2 = (r.val * 128 + Q.val / 2) * 1 + 0
      omega)
  rw [e, e]

/-- Two arrays given a unit middle axis, joined along it and flattened: row `R` comes from row `R / 2` of the
    array `R`'s parity picks. -/
theorem interleave_rows {α : Type} (y₁ y₂ : (⟨2, ![128, 256]⟩ : Shape).Idx → α)
    (hc1 : (⟨2, ![128, 256]⟩ : Shape).ShapeCasts ⟨3, ![128, 1, 256]⟩)
    (hcat : Shape.Concatenates [(⟨3, ![128, 1, 256]⟩ : Shape), ⟨3, ![128, 1, 256]⟩] ⟨3, ![128, 2, 256]⟩ 1)
    (hc2 : (⟨3, ![128, 2, 256]⟩ : Shape).ShapeCasts ⟨2, ![256, 256]⟩)
    (R Q : Fin 256) (hr : R.val / 2 < 128) :
    shapeCast (⟨2, ![256, 256]⟩ : Shape)
        (concatenate (⟨3, ![128, 2, 256]⟩ : Shape) 1
          [⟨(⟨3, ![128, 1, 256]⟩ : Shape), shapeCast (⟨3, ![128, 1, 256]⟩ : Shape) y₁ hc1⟩,
           ⟨(⟨3, ![128, 1, 256]⟩ : Shape), shapeCast (⟨3, ![128, 1, 256]⟩ : Shape) y₂ hc1⟩] hcat) hc2 (ix2 R Q)
      = if R.val % 2 = 0 then y₁ (ix2 ⟨R.val / 2, hr⟩ Q) else y₂ (ix2 ⟨R.val / 2, hr⟩ Q) := by
  have hα : R.val % 2 < 2 := Nat.mod_lt _ (by decide)
  refine (shapeCast_apply _ hc2 (ix2 R Q) (ix3 (⟨R.val / 2, hr⟩ : Fin 128) (⟨R.val % 2, hα⟩ : Fin 2) Q) ?_).trans ?_
  · rw [Shape.rowMajor_val_three, Shape.rowMajor_val_two]
    show (R.val / 2 * 2 + R.val % 2) * 256 + Q.val = R.val * 256 + Q.val
    omega
  refine (Cert.UnitStack.concatenate_unit_pair_apply 1 _ _ hcat rfl rfl
    (ix3 (⟨R.val / 2, hr⟩ : Fin 128) (⟨R.val % 2, hα⟩ : Fin 2) Q)
    (ix3 (⟨R.val / 2, hr⟩ : Fin 128) (0 : Fin 1) Q) ?_).trans ?_
  · intro b hb
    match b with
    | ⟨0, _⟩ => rfl
    | ⟨1, _⟩ => exact absurd rfl hb
    | ⟨2, _⟩ => rfl
  have e : ∀ y : (⟨2, ![128, 256]⟩ : Shape).Idx → α,
      shapeCast (⟨3, ![128, 1, 256]⟩ : Shape) y hc1 (ix3 (⟨R.val / 2, hr⟩ : Fin 128) (0 : Fin 1) Q)
        = y (ix2 ⟨R.val / 2, hr⟩ Q) := fun y =>
    shapeCast_apply y hc1 _ _ (by
      rw [Shape.rowMajor_val_two, Shape.rowMajor_val_three]
      show R.val / 2 * 256 + Q.val = (R.val / 2 * 1 + 0) * 256 + Q.val
      omega)
  rw [e, e]

/-- Four [128, 128] arrays made one [256, 256] image: the two of each row parity column-interleaved, the two
    results row-interleaved — the stack-and-flatten operations exactly as an image's assembly spells them. -/
def image {α : Type}
    (hc1 : (⟨2, ![128, 128]⟩ : Shape).ShapeCasts ⟨3, ![128, 128, 1]⟩)
    (hcat2 : Shape.Concatenates [(⟨3, ![128, 128, 1]⟩ : Shape), ⟨3, ![128, 128, 1]⟩] ⟨3, ![128, 128, 2]⟩ 2)
    (hc2 : (⟨3, ![128, 128, 2]⟩ : Shape).ShapeCasts ⟨2, ![128, 256]⟩)
    (hc3 : (⟨2, ![128, 256]⟩ : Shape).ShapeCasts ⟨3, ![128, 1, 256]⟩)
    (hcat1 : Shape.Concatenates [(⟨3, ![128, 1, 256]⟩ : Shape), ⟨3, ![128, 1, 256]⟩] ⟨3, ![128, 2, 256]⟩ 1)
    (hc4 : (⟨3, ![128, 2, 256]⟩ : Shape).ShapeCasts ⟨2, ![256, 256]⟩)
    (ee eo oe oo : (⟨2, ![128, 128]⟩ : Shape).Idx → α) : (⟨2, ![256, 256]⟩ : Shape).Idx → α :=
  shapeCast (⟨2, ![256, 256]⟩ : Shape)
    (concatenate (⟨3, ![128, 2, 256]⟩ : Shape) 1
      [⟨(⟨3, ![128, 1, 256]⟩ : Shape), shapeCast (⟨3, ![128, 1, 256]⟩ : Shape)
          (shapeCast (⟨2, ![128, 256]⟩ : Shape)
            (concatenate (⟨3, ![128, 128, 2]⟩ : Shape) 2
              [⟨(⟨3, ![128, 128, 1]⟩ : Shape), shapeCast (⟨3, ![128, 128, 1]⟩ : Shape) ee hc1⟩,
               ⟨(⟨3, ![128, 128, 1]⟩ : Shape), shapeCast (⟨3, ![128, 128, 1]⟩ : Shape) eo hc1⟩] hcat2) hc2) hc3⟩,
       ⟨(⟨3, ![128, 1, 256]⟩ : Shape), shapeCast (⟨3, ![128, 1, 256]⟩ : Shape)
          (shapeCast (⟨2, ![128, 256]⟩ : Shape)
            (concatenate (⟨3, ![128, 128, 2]⟩ : Shape) 2
              [⟨(⟨3, ![128, 128, 1]⟩ : Shape), shapeCast (⟨3, ![128, 128, 1]⟩ : Shape) oe hc1⟩,
               ⟨(⟨3, ![128, 128, 1]⟩ : Shape), shapeCast (⟨3, ![128, 128, 1]⟩ : Shape) oo hc1⟩] hcat2) hc2) hc3⟩]
      hcat1) hc4

/-- Pixel (R, Q) of the assembled image: the array the two parities choose, at (R / 2, Q / 2). -/
theorem image_apply {α : Type} (hc1 hcat2 hc2 hc3 hcat1 hc4) (ee eo oe oo : (⟨2, ![128, 128]⟩ : Shape).Idx → α)
    (R Q : Fin 256) (hr : R.val / 2 < 128) (hq : Q.val / 2 < 128) :
    image hc1 hcat2 hc2 hc3 hcat1 hc4 ee eo oe oo (ix2 R Q)
      = if R.val % 2 = 0 then
          (if Q.val % 2 = 0 then ee (ix2 ⟨R.val / 2, hr⟩ ⟨Q.val / 2, hq⟩) else eo (ix2 ⟨R.val / 2, hr⟩ ⟨Q.val / 2, hq⟩))
        else
          (if Q.val % 2 = 0 then oe (ix2 ⟨R.val / 2, hr⟩ ⟨Q.val / 2, hq⟩) else oo (ix2 ⟨R.val / 2, hr⟩ ⟨Q.val / 2, hq⟩)) := by
  unfold image
  rw [interleave_rows _ _ hc3 hcat1 hc4 R Q hr,
    interleave_cols ee eo hc1 hcat2 hc2 ⟨R.val / 2, hr⟩ Q hq,
    interleave_cols oe oo hc1 hcat2 hc2 ⟨R.val / 2, hr⟩ Q hq]

end Cert.Haar

end
-- ==== Proof.KernelImage.lean ====
/-
  One trip of the kernel's loop, read at a pixel.

  A trip loads one [1, 128, 128] image of each coefficient array, drops the unit axis, forms the four
  combinations, assembles them into a [256, 256] image by the two stack-and-flatten steps and stores it with a
  unit axis in front. Read at (0, R, Q), what is stored is the combination the parities of R and Q choose, of the
  four loaded images at (0, R / 2, Q / 2).
-/
import proofs.«181428_j80736795230662_2_alg».proof.Proof.Gen.KernelIdeal.Skeleton
import proofs.«181428_j80736795230662_2_alg».proof.Proof.HaarSpec
import proofs.«181428_j80736795230662_2_alg».proof.Proof.ImageInterleave
import Idealize.ShloMosaic.Lib.ValueIdx
import Idealize.ShloMosaic.Lib.Pipeline.Value

noncomputable section

namespace Cert.Haar.Body

open Idealize.ShloMosaic Idealize.ShloMosaic.ValueIdx
open Cert.KernelIdeal Cert.KernelIdeal.Gen

/-- The image a trip assembles is the assembly of the four combinations of the loaded images. -/
theorem assembled_eq (v2 v5 v8 v11 : Vec Ideal S1x128x128 .f32) :
    k0_pay2 (F := Ideal) v2 v5 v8 v11
      = image shapeCasts_S128x128_S128x128x1 concatenates_S128x128x1_S128x128x1_S128x128x2_d2
          shapeCasts_S128x128x2_S128x256 shapeCasts_S128x256_S128x1x256
          concatenates_S128x1x256_S128x1x256_S128x2x256_d1 shapeCasts_S128x2x256_S256x256
          (mulf (addf (addf (addf (shapeCast S128x128 v2 shapeCasts_S1x128x128_S128x128)
              (shapeCast S128x128 v8 shapeCasts_S1x128x128_S128x128))
              (shapeCast S128x128 v5 shapeCasts_S1x128x128_S128x128))
              (shapeCast S128x128 v11 shapeCasts_S1x128x128_S128x128))
            (broadcast S128x128 (Scalar.ofBits (F := Ideal) .f32 0x3F000000#32)))
          (mulf (subf (addf (subf (shapeCast S128x128 v2 shapeCasts_S1x128x128_S128x128)
              (shapeCast S128x128 v8 shapeCasts_S1x128x128_S128x128))
              (shapeCast S128x128 v5 shapeCasts_S1x128x128_S128x128))
              (shapeCast S128x128 v11 shapeCasts_S1x128x128_S128x128))
            (broadcast S128x128 (Scalar.ofBits (F := Ideal) .f32 0x3F000000#32)))
          (mulf (subf (subf (addf (shapeCast S128x128 v2 shapeCasts_S1x128x128_S128x128)
              (shapeCast S128x128 v8 shapeCasts_S1x128x128_S128x128))
              (shapeCast S128x128 v5 shapeCasts_S1x128x128_S128x128))
              (shapeCast S128x128 v11 shapeCasts_S1x128x128_S128x128))
            (broadcast S128x128 (Scalar.ofBits (F := Ideal) .f32 0x3F000000#32)))
          (mulf (addf (subf (subf (shapeCast S128x128 v2 shapeCasts_S1x128x128_S128x128)
              (shapeCast S128x128 v8 shapeCasts_S1x128x128_S128x128))
              (shapeCast S128x128 v5 shapeCasts_S1x128x128_S128x128))
              (shapeCast S128x128 v11 shapeCasts_S1x128x128_S128x128))
            (broadcast S128x128 (Scalar.ofBits (F := Ideal) .f32 0x3F000000#32))) := rfl

/-- What a trip stores, at (0, R, Q): the combination the two parities choose, of the loaded images at
    (0, R / 2, Q / 2). -/
theorem stored_apply (v2 v5 v8 v11 : Vec Ideal S1x128x128 .f32) (R Q : Fin 256)
    (hr : R.val / 2 < 128) (hq : Q.val / 2 < 128) :
    k0_pay1 (F := Ideal) (k0_pay2 v2 v5 v8 v11) (ix3 (0 : Fin 1) R Q)
      = quad (R.val % 2) (Q.val % 2)
          (v2 (ix3 (0 : Fin 1) (⟨R.val / 2, hr⟩ : Fin 128) (⟨Q.val / 2, hq⟩ : Fin 128)))
          (v5 (ix3 (0 : Fin 1) (⟨R.val / 2, hr⟩ : Fin 128) (⟨Q.val / 2, hq⟩ : Fin 128)))
          (v8 (ix3 (0 : Fin 1) (⟨R.val / 2, hr⟩ : Fin 128) (⟨Q.val / 2, hq⟩ : Fin 128)))
          (v11 (ix3 (0 : Fin 1) (⟨R.val / 2, hr⟩ : Fin 128) (⟨Q.val / 2, hq⟩ : Fin 128))) := by
  unfold k0_pay1
  refine (shapeCast_apply _ shapeCasts_S256x256_S1x256x256 (ix3 (0 : Fin 1) R Q) (ix2 R Q) ?_).trans ?_
  · rw [Shape.rowMajor_val_two, Shape.rowMajor_val_three]
    show R.val * 256 + Q.val = ((0 : ℕ) * 256 + R.val) * 256 + Q.val
    omega
  rw [assembled_eq, image_apply _ _ _ _ _ _ _ _ _ _ R Q hr hq]
  have drop : ∀ x : Vec Ideal S1x128x128 .f32,
      shapeCast S128x128 x shapeCasts_S1x128x128_S128x128 (ix2 (⟨R.val / 2, hr⟩ : Fin 128) (⟨Q.val / 2, hq⟩ : Fin 128))
        = x (ix3 (0 : Fin 1) (⟨R.val / 2, hr⟩ : Fin 128) (⟨Q.val / 2, hq⟩ : Fin 128)) := fun x =>
    shapeCast_apply x shapeCasts_S1x128x128_S128x128 _ _ (by
      rw [Shape.rowMajor_val_three, Shape.rowMajor_val_two]
      show ((0 : ℕ) * 128 + R.val / 2) * 128 + Q.val / 2 = R.val / 2 * 128 + Q.val / 2
      omega)
  simp only [mulf_apply, addf_apply, subf_apply, broadcast_apply, drop]
  rfl

end Cert.Haar.Body

end
-- ==== Proof.KernelBlock.lean ====
/-
  What one grid point leaves in its output block.

  The body runs eight trips; trip k stores the image assembled from image k of each input block at image k of
  the output block. So the block is written by eight stores, each the restriction of ONE function of the block
  index — `synth3 8` of the four input blocks — to the rectangle it covers, and the eight rectangles cover the
  block: the block ends holding that function.
-/
import proofs.«181428_j80736795230662_2_alg».proof.Proof.Gen.KernelIdeal.Frame
import proofs.«181428_j80736795230662_2_alg».proof.Proof.KernelImage
import proofs.«181428_j80736795230662_2_alg».proof.Proof.HaarSpec
import Idealize.ShloMosaic.Lib.Pipeline.Value

set_option maxRecDepth 16384

noncomputable section

namespace Cert.Haar.Block

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

section Pieces

variable {F : FTy → Type} [FloatOps F]

/-- Trip `k` writes one piece: at image `k` of the output block, the image assembled from what it loads at
    image `k` of each input block. -/
theorem trip_piece (𝒱 : Variants) (bd : Option 𝒱.V) (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x256x256 .f32) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 X_arg1 X_arg2 X_arg3 X_arg4 k
      = [(⟨Rect.unit (s := S8x256x256) (k0_off2 k) S1x256x256.size (k0_off2_inb k),
          k0_pay1 (k0_pay2
            (arg1.view.readAt (Elt F) (Rect.unit (s := S8x128x128) (k0_off1 k) S1x128x128.size (k0_off1_inb k)).toLoadRect X_arg1)
            (arg2.view.readAt (Elt F) (Rect.unit (s := S8x128x128) (k0_off1 k) S1x128x128.size (k0_off1_inb k)).toLoadRect X_arg2)
            (arg3.view.readAt (Elt F) (Rect.unit (s := S8x128x128) (k0_off1 k) S1x128x128.size (k0_off1_inb k)).toLoadRect X_arg3)
            (arg4.view.readAt (Elt F) (Rect.unit (s := S8x128x128) (k0_off1 k) S1x128x128.size (k0_off1_inb k)).toLoadRect X_arg4))⟩ :
          View.Piece (Elt F) S8x256x256 .f32)] := by
  unfold tripL_k0_t1 trip_k0_t1
  dsimp only
  unfold trip_k0_t1.sl.r
  rfl

/-- Every piece written before trip `n` is some trip's. -/
theorem mem_trips (𝒱 : Variants) (bd : Option 𝒱.V) (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x256x256 .f32) (harg5 : arg5.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (p : View.Piece (Elt F) S8x256x256 .f32) :
    ∀ n : ℕ, p ∈ pb_k0_t1 (F := F) 𝒱 c bd i arg1 harg1 arg2 harg2 arg3 harg3 arg4 harg4 arg5 harg5 X_arg1 X_arg2 X_arg3 X_arg4 n →
      ∃ k : Fin k0_t1_loop.trips, p ∈ tripL_k0_t1 (F := F) 𝒱 c bd i arg1 harg1 arg2 harg2 arg3 harg3 arg4 harg4 arg5 harg5 X_arg1 X_arg2 X_arg3 X_arg4 k
  | 0, hp => by rw [pb_k0_t1.eq_1] at hp; exact absurd hp List.not_mem_nil
  | n + 1, hp => by
    rw [pb_k0_t1.eq_2] at hp
    unfold pb_k0_t1Step at hp
    by_cases h : n < k0_t1_loop.trips
    · rw [dif_pos h] at hp
      rcases List.mem_append.mp hp with h1 | h2
      · exact ⟨⟨n, h⟩, h1⟩
      · exact mem_trips 𝒱 bd c i arg1 harg1 arg2 harg2 arg3 harg3 arg4 harg4 arg5 harg5 X_arg1 X_arg2 X_arg3 X_arg4 p n h2
    · rw [dif_neg h] at hp
      exact mem_trips 𝒱 bd c i arg1 harg1 arg2 harg2 arg3 harg3 arg4 harg4 arg5 harg5 X_arg1 X_arg2 X_arg3 X_arg4 p n hp

end Pieces

/-! ## One piece restricts the block's function -/

/-- Image `k` of the output block sits at (k, R, Q). -/
theorem store_at (k : Fin k0_t1_loop.trips) (hk : k.val < 8) (R Q : Fin 256) :
    (Rect.unit (s := S8x256x256) (k0_off2 k) S1x256x256.size (k0_off2_inb k)).emb (ix3 (0 : Fin 1) R Q)
      = ix3 (n0 := 8) (n1 := 256) (n2 := 256) ⟨k.val, hk⟩ R Q := by
  funext a; apply Fin.ext
  match a with
  | ⟨0, _⟩ => show k0_off2 k 0 + 1 * 0 = k.val; rw [k0_off2_eq]; show k.val + 1 * 0 = k.val; omega
  | ⟨1, _⟩ => show k0_off2 k 1 + 1 * R.val = R.val; rw [k0_off2_eq]; show 0 + 1 * R.val = R.val; omega
  | ⟨2, _⟩ => show k0_off2 k 2 + 1 * Q.val = Q.val; rw [k0_off2_eq]; show 0 + 1 * Q.val = Q.val; omega

/-- Image `k` of an input block sits at (k, r, q). -/
theorem load_at (k : Fin k0_t1_loop.trips) (hk : k.val < 8) (r q : Fin 128) :
    (Rect.unit (s := S8x128x128) (k0_off1 k) S1x128x128.size (k0_off1_inb k)).toLoadRect.idx (ix3 (0 : Fin 1) r q)
      = ix3 (n0 := 8) (n1 := 128) (n2 := 128) ⟨k.val, hk⟩ r q := by
  funext a; apply Fin.ext
  match a with
  | ⟨0, _⟩ => show k0_off1 k 0 + 1 * 0 = k.val; rw [k0_off1_eq]; show k.val + 1 * 0 = k.val; omega
  | ⟨1, _⟩ => show k0_off1 k 1 + 1 * r.val = r.val; rw [k0_off1_eq]; show 0 + 1 * r.val = r.val; omega
  | ⟨2, _⟩ => show k0_off1 k 2 + 1 * q.val = q.val; rw [k0_off1_eq]; show 0 + 1 * q.val = q.val; omega

/-- What trip `k` stores is `synth3 8` of the four input blocks, on the rectangle it stores at. -/
theorem piece_apply (k : Fin k0_t1_loop.trips) (x0 x1 x2 x3 : Vec Ideal S8x128x128 .f32) (x : S1x256x256.Idx) :
    k0_pay1 (F := Ideal) (k0_pay2
        (View.ld x0 (Rect.unit (s := S8x128x128) (k0_off1 k) S1x128x128.size (k0_off1_inb k)))
        (View.ld x1 (Rect.unit (s := S8x128x128) (k0_off1 k) S1x128x128.size (k0_off1_inb k)))
        (View.ld x2 (Rect.unit (s := S8x128x128) (k0_off1 k) S1x128x128.size (k0_off1_inb k)))
        (View.ld x3 (Rect.unit (s := S8x128x128) (k0_off1 k) S1x128x128.size (k0_off1_inb k)))) x
      = synth3 8 x0 x1 x2 x3
          ((Rect.unit (s := S8x256x256) (k0_off2 k) S1x256x256.size (k0_off2_inb k)).emb x) := by
  have hk : k.val < 8 := Nat.lt_of_lt_of_le k.isLt k0_t1_abs.2.1
  obtain ⟨z, R, Q, rfl⟩ : ∃ (z : Fin 1) (R Q : Fin 256), x = ix3 z R Q := ⟨x 0, x 1, x 2, eq_ix3 x⟩
  obtain rfl : z = 0 := Subsingleton.elim _ _
  have hr : R.val / 2 < 128 := by have := R.isLt; omega
  have hq : Q.val / 2 < 128 := by have := Q.isLt; omega
  refine (Cert.Haar.Body.stored_apply _ _ _ _ R Q hr hq).trans ?_
  rw [store_at k hk R Q]
  unfold synth3
  simp only [View.ld]
  rw [load_at k hk ⟨R.val / 2, hr⟩ ⟨Q.val / 2, hq⟩]

/-! ## The block after the point -/

/-- After the body at a grid point the output block holds `synth3 8` of the four input blocks. -/
theorem block_eq (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x256x256 .f32) (harg5 : arg5.IsWhole) (x0 x1 x2 x3 : Vec Ideal S8x128x128 .f32) :
    out0_A_4 (F := Ideal) c i arg1 harg1 arg2 harg2 arg3 harg3 arg4 harg4 arg5 harg5 x0 x1 x2 x3 = synth3 8 x0 x1 x2 x3 := by
  unfold out0_A_4
  rw [View.read_writes_junk_eq_canon]
  funext y
  refine View.canon_apply_of_pieces (synth3 8 x0 x1 x2 x3) _ (fun p hp x => ?_) y
    (cover0_A_4 c i arg1 harg1 arg2 harg2 arg3 harg3 arg4 harg4 arg5 harg5 x0 x1 x2 x3 y)
  have hp' : p ∈ pb_k0_t1 (F := Ideal) Variants.none c none i arg1 harg1 arg2 harg2 arg3 harg3 arg4 harg4 arg5 harg5
      (harg1.unread x0) (harg2.unread x1) (harg3.unread x2) (harg4.unread x3)
      (Scf.trips (0#32) (Scalar.addi 0#32 8#32) 1#32) := by
    unfold kernelRun0_A at hp
    exact hp
  obtain ⟨k, hk⟩ := mem_trips Variants.none none c i arg1 harg1 arg2 harg2 arg3 harg3 arg4 harg4 arg5 harg5 _ _ _ _ p _ hp'
  rw [trip_piece, List.mem_singleton] at hk
  subst hk
  simp only [View.readAt_eq_ld, harg1.read_unread, harg2.read_unread, harg3.read_unread, harg4.read_unread]
  exact piece_apply k x0 x1 x2 x3 x

end Cert.Haar.Block

end
-- ==== Proof.SynthLayout.lean ====
/-
  The synthesis of a stack of images, block by block, and under the flattening of the batch axes.

  `synth3` treats every image of a stack alike, so (1) the synthesis of eight consecutive images of a stack of
  1024 is those eight images of the synthesis of the whole stack, and (2) flattening the [16, 64] batch axes of
  the four coefficient arrays into one axis of 1024, synthesising, and unflattening the result is `synth4`:
  image b · 64 + c of the stack is image (b, c) of the batch.
-/
import proofs.«181428_j80736795230662_2_alg».proof.Proof.HaarSpec
import Idealize.ShloMosaic.Lib.ValueIdx
import Idealize.ShloMosaic.Lib.Pipeline.Value

noncomputable section

namespace Cert.Haar

open Idealize.ShloMosaic Idealize.ShloMosaic.ValueIdx

theorem synth3_apply (n : Nat) (a h v d : (⟨3, ![n, 128, 128]⟩ : Shape).Idx → EReal) (k : Fin n) (R Q : Fin 256) :
    synth3 n a h v d (ix3 k R Q)
      = quad (R.val % 2) (Q.val % 2)
          (a (ix3 k (halfIdx R) (halfIdx Q))) (h (ix3 k (halfIdx R) (halfIdx Q)))
          (v (ix3 k (halfIdx R) (halfIdx Q))) (d (ix3 k (halfIdx R) (halfIdx Q))) := rfl

theorem synth4_apply (a h v d : (⟨4, ![16, 64, 128, 128]⟩ : Shape).Idx → EReal) (b : Fin 16) (c : Fin 64) (R Q : Fin 256) :
    synth4 a h v d (ix4 b c R Q)
      = quad (R.val % 2) (Q.val % 2)
          (a (ix4 b c (halfIdx R) (halfIdx Q))) (h (ix4 b c (halfIdx R) (halfIdx Q)))
          (v (ix4 b c (halfIdx R) (halfIdx Q))) (d (ix4 b c (halfIdx R) (halfIdx Q))) := rfl

/-- Eight consecutive images: if each of four [8, 128, 128] blocks is images 8T … 8T + 7 of its [1024, 128, 128]
    stack, the blocks' synthesis at image k is the stacks' synthesis at image 8T + k. -/
theorem synth3_block (A0 A1 A2 A3 : (⟨3, ![1024, 128, 128]⟩ : Shape).Idx → EReal) (T : ℕ) (hT : T < 128)
    (b0 b1 b2 b3 : (⟨3, ![8, 128, 128]⟩ : Shape).Idx → EReal)
    (h0 : ∀ (k : Fin 8) (r q : Fin 128), b0 (ix3 k r q) = A0 (ix3 (⟨T * 8 + k.val, by have := k.isLt; omega⟩ : Fin 1024) r q))
    (h1 : ∀ (k : Fin 8) (r q : Fin 128), b1 (ix3 k r q) = A1 (ix3 (⟨T * 8 + k.val, by have := k.isLt; omega⟩ : Fin 1024) r q))
    (h2 : ∀ (k : Fin 8) (r q : Fin 128), b2 (ix3 k r q) = A2 (ix3 (⟨T * 8 + k.val, by have := k.isLt; omega⟩ : Fin 1024) r q))
    (h3 : ∀ (k : Fin 8) (r q : Fin 128), b3 (ix3 k r q) = A3 (ix3 (⟨T * 8 + k.val, by have := k.isLt; omega⟩ : Fin 1024) r q))
    (k : Fin 8) (R Q : Fin 256) :
    synth3 8 b0 b1 b2 b3 (ix3 k R Q)
      = synth3 1024 A0 A1 A2 A3 (ix3 (⟨T * 8 + k.val, by have := k.isLt; omega⟩ : Fin 1024) R Q) := by
  rw [synth3_apply, synth3_apply, h0, h1, h2, h3]

/-- Flatten the batch axes, synthesise, unflatten: the batch's synthesis. -/
theorem synth4_of_stack (a h v d : (⟨4, ![16, 64, 128, 128]⟩ : Shape).Idx → EReal)
    (hin : (⟨4, ![16, 64, 128, 128]⟩ : Shape).ShapeCasts ⟨3, ![1024, 128, 128]⟩)
    (hout : (⟨3, ![1024, 256, 256]⟩ : Shape).ShapeCasts ⟨4, ![16, 64, 256, 256]⟩) :
    shapeCast (⟨4, ![16, 64, 256, 256]⟩ : Shape)
        (synth3 1024 (shapeCast (⟨3, ![1024, 128, 128]⟩ : Shape) a hin) (shapeCast (⟨3, ![1024, 128, 128]⟩ : Shape) h hin)
          (shapeCast (⟨3, ![1024, 128, 128]⟩ : Shape) v hin) (shapeCast (⟨3, ![1024, 128, 128]⟩ : Shape) d hin)) hout
      = synth4 a h v d := by
  funext i
  obtain ⟨b, c, R, Q, rfl⟩ : ∃ (b : Fin 16) (c : Fin 64) (R Q : Fin 256), i = ix4 b c R Q :=
    ⟨i 0, i 1, i 2, i 3, eq_ix4 i⟩
  have hbc : b.val * 64 + c.val < 1024 := by have := b.isLt; have := c.isLt; omega
  refine (shapeCast_apply _ hout (ix4 b c R Q) (ix3 (⟨b.val * 64 + c.val, hbc⟩ : Fin 1024) R Q) ?_).trans ?_
  · rw [Shape.rowMajor_val_three, Shape.rowMajor_val_four]
    rfl
  have e : ∀ x : (⟨4, ![16, 64, 128, 128]⟩ : Shape).Idx → EReal,
      shapeCast (⟨3, ![1024, 128, 128]⟩ : Shape) x hin (ix3 (⟨b.val * 64 + c.val, hbc⟩ : Fin 1024) (halfIdx R) (halfIdx Q))
        = x (ix4 b c (halfIdx R) (halfIdx Q)) := fun x =>
    shapeCast_apply x hin _ _ (by
      rw [Shape.rowMajor_val_four, Shape.rowMajor_val_three]
      rfl)
  rw [synth3_apply, synth4_apply, e, e, e, e]

end Cert.Haar

end
-- ==== Proof.KernelArray.lean ====
/-
  The kernel's result array.

  Grid point t reads images 8t … 8t + 7 of each flattened coefficient array and writes images 8t … 8t + 7 of the
  flattened result; what it writes is the synthesis of what it reads, which is those eight images of the
  synthesis of the whole stacks. The 128 points' blocks cover the 1024 images, so the flattened result ends
  holding the synthesis of the four flattened arrays; the flattenings before and the unflattening after are
  absorbed by `synth4_of_stack`: the program's result is `synth4` of its four arguments.
-/
import proofs.«181428_j80736795230662_2_alg».proof.Proof.Gen.KernelIdeal.Frame
import proofs.«181428_j80736795230662_2_alg».proof.Proof.KernelBlock
import proofs.«181428_j80736795230662_2_alg».proof.Proof.SynthLayout
import Idealize.ShloMosaic.Lib.Pipeline.Value
import Idealize.ShloMosaic.Lib.StableHlo.Run

set_option maxRecDepth 16384

noncomputable section

namespace Cert.Haar.Array

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Where the blocks sit -/

theorem lt_N (t : Fin cfg0.N) : t.val < 128 := Nat.lt_of_lt_of_eq t.isLt N_0

/-- Every window's block index at point `t` is (t, 0, 0): decided once over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Input block 0 at point `t` is images 8t … 8t + 7 of its stack. -/
theorem iblk0_apply (c : Dev nD) (t : Fin cfg0.N) (k : Fin 8) (r q : Fin 128) :
    (iblk m c 0 t : Vec Ideal S8x128x128 .f32) (ix3 k r q)
      = (V m c main_v0 : S1024x128x128.Idx → EReal)
          (ix3 (⟨t.val * 8 + k.val, by have := lt_N t; have := k.isLt; omega⟩ : Fin 1024) r q) := by
  have hi := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 8 + 1 * k.val = t.val * 8 + k.val; omega
  | ⟨1, _⟩ => show win0_0.index t (1 : Fin 3) * 128 + 1 * r.val = r.val; omega
  | ⟨2, _⟩ => show win0_0.index t (2 : Fin 3) * 128 + 1 * q.val = q.val; omega

/-- Input block 1 at point `t` is images 8t … 8t + 7 of its stack. -/
theorem iblk1_apply (c : Dev nD) (t : Fin cfg0.N) (k : Fin 8) (r q : Fin 128) :
    (iblk m c 1 t : Vec Ideal S8x128x128 .f32) (ix3 k r q)
      = (V m c main_v1 : S1024x128x128.Idx → EReal)
          (ix3 (⟨t.val * 8 + k.val, by have := lt_N t; have := k.isLt; omega⟩ : Fin 1024) r q) := by
  have hi := idx_facts t
  unfold iblk
  rw [View.read_apply]
  show V m c main_v1 _ = V m c main_v1 _
  refine congrArg (V m c main_v1) ?_
  funext a
  apply Fin.ext
  match a with
  | ⟨0, _⟩ => show win0_1.index t (0 : Fin 3) * 8 + 1 * k.val = t.val * 8 + k.val; omega
  | ⟨1, _⟩ => show win0_1.index t (1 : Fin 3) * 128 + 1 * r.val = r.val; omega
  | ⟨2, _⟩ => show win0_1.index t (2 : Fin 3) * 128 + 1 * q.val = q.val; omega

/-- Input block 2 at point `t` is images 8t … 8t + 7 of its stack. -/
theorem iblk2_apply (c : Dev nD) (t : Fin cfg0.N) (k : Fin 8) (r q : Fin 128) :
    (iblk m c 2 t : Vec Ideal S8x128x128 .f32) (ix3 k r q)
      = (V m c main_v2 : S1024x128x128.Idx → EReal)
          (ix3 (⟨t.val * 8 + k.val, by have := lt_N t; have := k.isLt; omega⟩ : Fin 1024) r q) := by
  have hi := idx_facts t
  unfold iblk
  rw [View.read_apply]
  show V m c main_v2 _ = V m c main_v2 _
  refine congrArg (V m c main_v2) ?_
  funext a
  apply Fin.ext
  match a with
  | ⟨0, _⟩ => show win0_2.index t (0 : Fin 3) * 8 + 1 * k.val = t.val * 8 + k.val; omega
  | ⟨1, _⟩ => show win0_2.index t (1 : Fin 3) * 128 + 1 * r.val = r.val; omega
  | ⟨2, _⟩ => show win0_2.index t (2 : Fin 3) * 128 + 1 * q.val = q.val; omega

/-- Input block 3 at point `t` is images 8t … 8t + 7 of its stack. -/
theorem iblk3_apply (c : Dev nD) (t : Fin cfg0.N) (k : Fin 8) (r q : Fin 128) :
    (iblk m c 3 t : Vec Ideal S8x128x128 .f32) (ix3 k r q)
      = (V m c main_v3 : S1024x128x128.Idx → EReal)
          (ix3 (⟨t.val * 8 + k.val, by have := lt_N t; have := k.isLt; omega⟩ : Fin 1024) r q) := by
  have hi := idx_facts t
  unfold iblk
  rw [View.read_apply]
  show V m c main_v3 _ = V m c main_v3 _
  refine congrArg (V m c main_v3) ?_
  funext a
  apply Fin.ext
  match a with
  | ⟨0, _⟩ => show win0_3.index t (0 : Fin 3) * 8 + 1 * k.val = t.val * 8 + k.val; omega
  | ⟨1, _⟩ => show win0_3.index t (1 : Fin 3) * 128 + 1 * r.val = r.val; omega
  | ⟨2, _⟩ => show win0_3.index t (2 : Fin 3) * 128 + 1 * q.val = q.val; omega

/-- Output block `t`'s element (k, R, Q) is the result stack's element (8t + k, R, Q). -/
theorem oblk_at (t : Fin cfg0.N) (k : Fin 8) (R Q : Fin 256) :
    ((cfg0.win 4).blk t).view.emb (ix3 k R Q)
      = ix3 (n0 := 1024) (n1 := 256) (n2 := 256) ⟨t.val * 8 + k.val, by have := lt_N t; have := k.isLt; omega⟩ R Q := by
  have hi := idx_facts t
  funext a
  apply Fin.ext
  match a with
  | ⟨0, _⟩ => show win0_4.index t (0 : Fin 3) * 8 + 1 * k.val = t.val * 8 + k.val; omega
  | ⟨1, _⟩ => show win0_4.index t (1 : Fin 3) * 256 + 1 * R.val = R.val; omega
  | ⟨2, _⟩ => show win0_4.index t (2 : Fin 3) * 256 + 1 * Q.val = Q.val; omega

/-! ## What a point writes back -/

/-- The synthesis of the four flattened arrays as the region finds them. -/
abbrev stackResult (c : Dev nD) : S1024x256x256.Idx → EReal :=
  synth3 1024 (V m c main_v0) (V m c main_v1) (V m c main_v2) (V m c main_v3)

/-- Point `t` writes back block `t` of the stacks' synthesis. -/
theorem flushed_eq (c : Dev nD) (t : Fin cfg0.N) :
    (dats m 0 c).flushed 4 t = ((cfg0.win 4).blk t).view.read (Elt Ideal) (stackResult m c) := by
  show (cfg0.win 4).cut (grid0.coords t) ((dats m 0 c).after 4 t) = _
  rw [after0_4]
  funext j
  show out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) j
      = stackResult m c (((cfg0.win 4).blk t).view.emb j)
  rw [Cert.Haar.Block.block_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)]
  have hj : j = ix3 (n0 := 8) (n1 := 256) (n2 := 256) (j 0) (j 1) (j 2) := by
    funext a
    match a with
    | ⟨0, _⟩ => rfl
    | ⟨1, _⟩ => rfl
    | ⟨2, _⟩ => rfl
  rw [hj, oblk_at t (j 0) (j 1) (j 2)]
  exact synth3_block (V m c main_v0) (V m c main_v1) (V m c main_v2) (V m c main_v3) t.val (lt_N t)
    (iblk m c 0 t) (iblk m c 1 t) (iblk m c 2 t) (iblk m c 3 t)
    (iblk0_apply m c t) (iblk1_apply m c t) (iblk2_apply m c t) (iblk3_apply m c t) (j 0) (j 1) (j 2)

/-! ## The blocks cover the stack -/

theorem mem_blk (t : Fin cfg0.N) (i : S1024x256x256.Idx) :
    i ∈ ((cfg0.win 4).blk t).view.set ↔ ∀ a : Fin 3, win0_4.index t a * S8x256x256.size a ≤ (i a).val
      ∧ (i a).val < win0_4.index t a * S8x256x256.size a + S8x256x256.size a := by
  show i ∈ ((View.whole main_v4).slice (win0_4.rect t)).set ↔ _
  rw [View.set_slice_whole, Rect.mem_set_unit]
  exact Iff.rfl

/-- Image n of the result stack is in the block of point n / 8. -/
theorem covered (i : S1024x256x256.Idx) :
    ∃ t : Fin cfg0.N, (cfg0.win 4).flush t = true ∧ i ∈ ((cfg0.win 4).blk t).view.set := by
  have h0 : (i 0).val < 1024 := (i 0).isLt
  have h1 : (i 1).val < 256 := (i 1).isLt
  have h2 : (i 2).val < 256 := (i 2).isLt
  have hN : cfg0.N = 128 := N_0
  have ht : (i 0).val / 8 < cfg0.N := by rw [hN]; omega
  have hi := idx_facts ⟨(i 0).val / 8, ht⟩
  refine ⟨⟨(i 0).val / 8, ht⟩, flush0_4 _, ?_⟩
  rw [mem_blk]
  intro a
  match a with
  | ⟨0, _⟩ =>
    show win0_4.index ⟨(i 0).val / 8, ht⟩ (0 : Fin 3) * 8 ≤ (i 0).val
      ∧ (i 0).val < win0_4.index ⟨(i 0).val / 8, ht⟩ (0 : Fin 3) * 8 + 8
    have e : win0_4.index ⟨(i 0).val / 8, ht⟩ (0 : Fin 3) = (i 0).val / 8 := hi.2.2.2.2.2.2.2.2.2.2.2.2.1
    omega
  | ⟨1, _⟩ =>
    show win0_4.index ⟨(i 0).val / 8, ht⟩ (1 : Fin 3) * 256 ≤ (i 1).val
      ∧ (i 1).val < win0_4.index ⟨(i 0).val / 8, ht⟩ (1 : Fin 3) * 256 + 256
    have e : win0_4.index ⟨(i 0).val / 8, ht⟩ (1 : Fin 3) = 0 := hi.2.2.2.2.2.2.2.2.2.2.2.2.2.1
    omega
  | ⟨2, _⟩ =>
    show win0_4.index ⟨(i 0).val / 8, ht⟩ (2 : Fin 3) * 256 ≤ (i 2).val
      ∧ (i 2).val < win0_4.index ⟨(i 0).val / 8, ht⟩ (2 : Fin 3) * 256 + 256
    have e : win0_4.index ⟨(i 0).val / 8, ht⟩ (2 : Fin 3) = 0 := hi.2.2.2.2.2.2.2.2.2.2.2.2.2.2
    omega

/-- The result stack after the region. -/
theorem final_stack (c : Dev nD) : (dats m 0 c).arrAt 4 cfg0.N = stackResult m c :=
  (dats m 0 c).arrAt_eq_of_cover 4 (stackResult m c) (fun t _ => flushed_eq m c t) covered

/-! ## The flattenings before the region, the unflattening after it -/

theorem V_main_v0 (c : Dev nD) :
    (V m c main_v0 : S1024x128x128.Idx → EReal)
      = shapeCast S1024x128x128 (m ((c : Thread nD τ).loc main_arg0)) shapeCasts_S16x64x128x128_S1024x128x128 := by
  show StableHlo.after hostOps0 (fun b => m (c, b)) (Proc.devRef .tc main_v0) = _
  after_results
  rfl

theorem V_main_v1 (c : Dev nD) :
    (V m c main_v1 : S1024x128x128.Idx → EReal)
      = shapeCast S1024x128x128 (m ((c : Thread nD τ).loc main_arg1)) shapeCasts_S16x64x128x128_S1024x128x128 := by
  show StableHlo.after hostOps0 (fun b => m (c, b)) (Proc.devRef .tc main_v1) = _
  after_results
  rfl

theorem V_main_v2 (c : Dev nD) :
    (V m c main_v2 : S1024x128x128.Idx → EReal)
      = shapeCast S1024x128x128 (m ((c : Thread nD τ).loc main_arg2)) shapeCasts_S16x64x128x128_S1024x128x128 := by
  show StableHlo.after hostOps0 (fun b => m (c, b)) (Proc.devRef .tc main_v2) = _
  after_results
  rfl

theorem V_main_v3 (c : Dev nD) :
    (V m c main_v3 : S1024x128x128.Idx → EReal)
      = shapeCast S1024x128x128 (m ((c : Thread nD τ).loc main_arg3)) shapeCasts_S16x64x128x128_S1024x128x128 := by
  show StableHlo.after hostOps0 (fun b => m (c, b)) (Proc.devRef .tc main_v3) = _
  after_results
  rfl

/-- The program's result: the synthesis of the four arguments. -/
theorem result_eq (c : Dev nD) :
    Pipeline.afterTail₀ cfgs (dats m) 0 (V0 m) [hostOps1] c main_v5
      = synth4 (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have hw := (Pipeline.withArrays_arr spec0 launch0.win.arr_inj c (V0 m c)
    (fun w => (dats m 0 c).arrAt w cfg0.N) 4).trans (final_stack m c)
  refine (congrArg (fun X : S1024x256x256.Idx → EReal =>
    shapeCast S16x64x256x256 X shapeCasts_S1024x256x256_S16x64x256x256) hw).trans ?_
  show shapeCast S16x64x256x256
      (synth3 1024 (V m c main_v0) (V m c main_v1) (V m c main_v2) (V m c main_v3))
      shapeCasts_S1024x256x256_S16x64x256x256 = _
  rw [V_main_v0 m c, V_main_v1 m c, V_main_v2 m c, V_main_v3 m c]
  exact synth4_of_stack _ _ _ _ shapeCasts_S16x64x128x128_S1024x128x128 shapeCasts_S1024x256x256_S16x64x256x256

/-- Every weakly fair execution of the kernel's program ends with the result array at the synthesis of the four
    argument arrays, and the arguments as launched. -/
theorem run : θ_run defs (onTc (τ := τ) (main (F := Ideal))) ⟨m, fun _ => 0, ρ⟩ (fun r => ∀ c : Dev nD,
      r.2.mem ((c.tc : Thread nD τ).loc main_v5)
        = synth4 (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Haar.Array

end
-- ==== Proof.RefSynth.lean ====
/-
  The reference computes `synth4`.

  The reference forms the four combinations on whole [16, 64, 128, 128] arrays, stacks the two of each row
  parity on a new last axis and flattens it (columns interleaved), then stacks the two results on a new axis
  before the last and flattens that (rows interleaved). Read at (b, c, R, Q), from the outside in: the last
  reshape takes (b, c, R, Q) to (b, c, R / 2, R % 2, Q); the join on axis 3 picks by R % 2; the unit axis is
  dropped; the inner reshape takes (b, c, r, Q) to (b, c, r, Q / 2, Q % 2); the join on axis 4 picks by Q % 2;
  the unit axis is dropped; what is left is one combination at (b, c, R / 2, Q / 2).
-/
import proofs.«181428_j80736795230662_2_alg».proof.Proof.RefRead
import proofs.«181428_j80736795230662_2_alg».proof.Proof.HaarSpec
import proofs.«181428_j80736795230662_2_alg».proof.Proof.LibUnitStack
import Idealize.ShloMosaic.Lib.ValueIdx

noncomputable section

namespace Cert.Haar.Ref

open Idealize.ShloMosaic Idealize.ShloMosaic.ValueIdx
open Cert.ReferenceIdeal Cert.ReferenceIdeal.Gen Cert.ReferenceIdeal.ReadP

variable (x0 x1 x2 x3 : (⟨S16x64x128x128, .f32⟩ : BufTy).Contents (Elt Ideal))

/-! ## The four combinations at a coefficient position -/

theorem ee_at (p : S16x64x128x128.Idx) :
    val_main_v4 (F := Ideal) x0 x1 x2 x3 p = (x0 p + x2 p + x1 p + x3 p) * half := by
  rw [val_main_v4_apply, val_main_v2_apply, val_main_v1_apply, val_main_v0_apply, val_main_v3_apply, val_main_cst_apply]
  rfl

theorem eo_at (p : S16x64x128x128.Idx) :
    val_main_v9 (F := Ideal) x0 x1 x2 x3 p = (x0 p - x2 p + x1 p - x3 p) * half := by
  rw [val_main_v9_apply, val_main_v7_apply, val_main_v6_apply, val_main_v5_apply, val_main_v8_apply, val_main_cst_0_apply]
  rfl

theorem oe_at (p : S16x64x128x128.Idx) :
    val_main_v14 (F := Ideal) x0 x1 x2 x3 p = (x0 p + x2 p - x1 p - x3 p) * half := by
  rw [val_main_v14_apply, val_main_v12_apply, val_main_v11_apply, val_main_v10_apply, val_main_v13_apply, val_main_cst_1_apply]
  rfl

theorem oo_at (p : S16x64x128x128.Idx) :
    val_main_v19 (F := Ideal) x0 x1 x2 x3 p = (x0 p - x2 p - x1 p + x3 p) * half := by
  rw [val_main_v19_apply, val_main_v17_apply, val_main_v16_apply, val_main_v15_apply, val_main_v18_apply, val_main_cst_2_apply]
  rfl

/-! ## The new unit axes: position (…, 0) reads the array underneath -/

theorem idx20 (b : Fin 16) (c : Fin 64) (r q : Fin 128) :
    idx_main_v20 (ix5 b c r q (0 : Fin 1)) = ix4 b c r q := by
  funext a; match a with | ⟨0, _⟩ => rfl | ⟨1, _⟩ => rfl | ⟨2, _⟩ => rfl | ⟨3, _⟩ => rfl

theorem idx28 (b : Fin 16) (c : Fin 64) (r : Fin 128) (Q : Fin 256) :
    idx_main_v28 (ix5 b c r (0 : Fin 1) Q) = ix4 b c r Q := by
  funext a; match a with | ⟨0, _⟩ => rfl | ⟨1, _⟩ => rfl | ⟨2, _⟩ => rfl | ⟨3, _⟩ => rfl

theorem idx21 (b : Fin 16) (c : Fin 64) (r q : Fin 128) :
    idx_main_v21 (ix5 b c r q (0 : Fin 1)) = ix4 b c r q := idx20 b c r q
theorem idx24 (b : Fin 16) (c : Fin 64) (r q : Fin 128) :
    idx_main_v24 (ix5 b c r q (0 : Fin 1)) = ix4 b c r q := idx20 b c r q
theorem idx25 (b : Fin 16) (c : Fin 64) (r q : Fin 128) :
    idx_main_v25 (ix5 b c r q (0 : Fin 1)) = ix4 b c r q := idx20 b c r q
theorem idx29 (b : Fin 16) (c : Fin 64) (r : Fin 128) (Q : Fin 256) :
    idx_main_v29 (ix5 b c r (0 : Fin 1) Q) = ix4 b c r Q := idx28 b c r Q

/-! ## The two flattenings: where a flat position sits in the stacked array -/

theorem idx23 (b : Fin 16) (c : Fin 64) (r : Fin 128) (Q : Fin 256) (hq : Q.val / 2 < 128) (hβ : Q.val % 2 < 2) :
    idx_main_v23 (ix4 b c r Q) = ix5 b c r (⟨Q.val / 2, hq⟩ : Fin 128) (⟨Q.val % 2, hβ⟩ : Fin 2) := by
  have hb := b.isLt; have hc := c.isLt; have hr := r.isLt; have hQ := Q.isLt
  funext a; apply Fin.ext
  match a with
  | ⟨0, _⟩ => show (((b.val * 64 + c.val) * 128 + r.val) * 256 + Q.val) / 2097152 = b.val; omega
  | ⟨1, _⟩ => show (((b.val * 64 + c.val) * 128 + r.val) * 256 + Q.val) / 32768 % 64 = c.val; omega
  | ⟨2, _⟩ => show (((b.val * 64 + c.val) * 128 + r.val) * 256 + Q.val) / 256 % 128 = r.val; omega
  | ⟨3, _⟩ => show (((b.val * 64 + c.val) * 128 + r.val) * 256 + Q.val) / 2 % 128 = Q.val / 2; omega
  | ⟨4, _⟩ => show (((b.val * 64 + c.val) * 128 + r.val) * 256 + Q.val) % 2 = Q.val % 2; omega

theorem idx31 (b : Fin 16) (c : Fin 64) (R Q : Fin 256) (hr : R.val / 2 < 128) (hα : R.val % 2 < 2) :
    idx_main_v31 (ix4 b c R Q) = ix5 b c (⟨R.val / 2, hr⟩ : Fin 128) (⟨R.val % 2, hα⟩ : Fin 2) Q := by
  have hb := b.isLt; have hc := c.isLt; have hR := R.isLt; have hQ := Q.isLt
  funext a; apply Fin.ext
  match a with
  | ⟨0, _⟩ => show (((b.val * 64 + c.val) * 256 + R.val) * 256 + Q.val) / 4194304 = b.val; omega
  | ⟨1, _⟩ => show (((b.val * 64 + c.val) * 256 + R.val) * 256 + Q.val) / 65536 % 64 = c.val; omega
  | ⟨2, _⟩ => show (((b.val * 64 + c.val) * 256 + R.val) * 256 + Q.val) / 512 % 128 = R.val / 2; omega
  | ⟨3, _⟩ => show (((b.val * 64 + c.val) * 256 + R.val) * 256 + Q.val) / 256 % 2 = R.val % 2; omega
  | ⟨4, _⟩ => show (((b.val * 64 + c.val) * 256 + R.val) * 256 + Q.val) % 256 = Q.val; omega

theorem idx27 (b : Fin 16) (c : Fin 64) (r : Fin 128) (Q : Fin 256) (hq : Q.val / 2 < 128) (hβ : Q.val % 2 < 2) :
    idx_main_v27 (ix4 b c r Q) = ix5 b c r (⟨Q.val / 2, hq⟩ : Fin 128) (⟨Q.val % 2, hβ⟩ : Fin 2) := idx23 b c r Q hq hβ

/-! ## The joins: the parity picks the array -/

theorem cols_even_at (b : Fin 16) (c : Fin 64) (r q : Fin 128) (β : Fin 2) :
    val_main_v22 (F := Ideal) x0 x1 x2 x3 (ix5 b c r q β)
      = if β.val = 0 then val_main_v20 (F := Ideal) x0 x1 x2 x3 (ix5 b c r q (0 : Fin 1))
        else val_main_v21 (F := Ideal) x0 x1 x2 x3 (ix5 b c r q (0 : Fin 1)) := by
  unfold val_main_v22
  exact Cert.UnitStack.concatenate_unit_pair_apply (t := S16x64x128x128x2) (s := S16x64x128x128x1) 4 _ _
    concatenates_S16x64x128x128x1_S16x64x128x128x1_S16x64x128x128x2_d4 rfl rfl (ix5 b c r q β) (ix5 b c r q (0 : Fin 1))
    (fun b' hb => by
      match b' with
      | ⟨0, _⟩ => rfl
      | ⟨1, _⟩ => rfl
      | ⟨2, _⟩ => rfl
      | ⟨3, _⟩ => rfl
      | ⟨4, _⟩ => exact absurd rfl hb)

theorem cols_odd_at (b : Fin 16) (c : Fin 64) (r q : Fin 128) (β : Fin 2) :
    val_main_v26 (F := Ideal) x0 x1 x2 x3 (ix5 b c r q β)
      = if β.val = 0 then val_main_v24 (F := Ideal) x0 x1 x2 x3 (ix5 b c r q (0 : Fin 1))
        else val_main_v25 (F := Ideal) x0 x1 x2 x3 (ix5 b c r q (0 : Fin 1)) := by
  unfold val_main_v26
  exact Cert.UnitStack.concatenate_unit_pair_apply (t := S16x64x128x128x2) (s := S16x64x128x128x1) 4 _ _
    concatenates_S16x64x128x128x1_S16x64x128x128x1_S16x64x128x128x2_d4 rfl rfl (ix5 b c r q β) (ix5 b c r q (0 : Fin 1))
    (fun b' hb => by
      match b' with
      | ⟨0, _⟩ => rfl
      | ⟨1, _⟩ => rfl
      | ⟨2, _⟩ => rfl
      | ⟨3, _⟩ => rfl
      | ⟨4, _⟩ => exact absurd rfl hb)

theorem rows_at (b : Fin 16) (c : Fin 64) (r : Fin 128) (α : Fin 2) (Q : Fin 256) :
    val_main_v30 (F := Ideal) x0 x1 x2 x3 (ix5 b c r α Q)
      = if α.val = 0 then val_main_v28 (F := Ideal) x0 x1 x2 x3 (ix5 b c r (0 : Fin 1) Q)
        else val_main_v29 (F := Ideal) x0 x1 x2 x3 (ix5 b c r (0 : Fin 1) Q) := by
  unfold val_main_v30
  exact Cert.UnitStack.concatenate_unit_pair_apply (t := S16x64x128x2x256) (s := S16x64x128x1x256) 3 _ _
    concatenates_S16x64x128x1x256_S16x64x128x1x256_S16x64x128x2x256_d3 rfl rfl (ix5 b c r α Q) (ix5 b c r (0 : Fin 1) Q)
    (fun b' hb => by
      match b' with
      | ⟨0, _⟩ => rfl
      | ⟨1, _⟩ => rfl
      | ⟨2, _⟩ => rfl
      | ⟨3, _⟩ => exact absurd rfl hb
      | ⟨4, _⟩ => rfl)

/-! ## The reference's result is the synthesis -/

theorem result_eq : val_main_v31 (F := Ideal) x0 x1 x2 x3 = synth4 x0 x1 x2 x3 := by
  funext i
  obtain ⟨b, c, R, Q, rfl⟩ : ∃ (b : Fin 16) (c : Fin 64) (R Q : Fin 256), i = ix4 b c R Q :=
    ⟨i 0, i 1, i 2, i 3, eq_ix4 i⟩
  have hr : R.val / 2 < 128 := by have := R.isLt; omega
  have hq : Q.val / 2 < 128 := by have := Q.isLt; omega
  have hα : R.val % 2 < 2 := Nat.mod_lt _ (by decide)
  have hβ : Q.val % 2 < 2 := Nat.mod_lt _ (by decide)
  rw [val_main_v31_apply, idx31 b c R Q hr hα, rows_at,
    val_main_v28_apply, val_main_v29_apply, idx28, idx29, val_main_v23_apply, val_main_v27_apply,
    idx23 b c _ Q hq hβ, idx27 b c _ Q hq hβ, cols_even_at, cols_odd_at,
    val_main_v20_apply, val_main_v21_apply, val_main_v24_apply, val_main_v25_apply, idx20, idx21, idx24, idx25,
    ee_at, eo_at, oe_at, oo_at]
  rfl

end Cert.Haar.Ref

end
-- ==== Proof.lean ====
/-
  Inverse Haar synthesis, kernel against reference.

  Both programs take four [16, 64, 128, 128] coefficient arrays a, h, v, d and produce the [16, 64, 256, 256] array
  whose pixel (b, c, R, Q) is, by the parities of R and Q, one of
      (a + v + h + d) / 2,  (a - v + h - d) / 2,  (a + v - h - d) / 2,  (a - v - h + d) / 2
  at (b, c, R / 2, Q / 2) — `Cert.Haar.synth4` (HaarSpec.lean). The two programs spell the four combinations with the
  same operations in the same order and the same word for 1/2, so no law of arithmetic is used and the
  precondition is never opened; what differs is where the elements travel. The kernel flattens the batch axes,
  handles eight images per grid point, one per trip of a loop, assembling each image by two stack-and-flatten
  steps, and unflattens the result (KernelImage, KernelBlock, KernelArray). The reference does the same two
  stack-and-flatten steps once, on the whole arrays (RefSynth). Each side is shown to end at `synth4` of its
  arguments, and the arguments agree.

  The frames of the two kernel programs are the generated ones; the reference's frame is its run with the result
  dropped. The idealization rewrote nothing, so there is nothing to preserve.
-/
import proofs.«181428_j80736795230662_2_alg».proof.Defs
import proofs.«181428_j80736795230662_2_alg».proof.Proof.Gen.Kernel
import proofs.«181428_j80736795230662_2_alg».proof.Proof.Gen.Kernel.Frame
import proofs.«181428_j80736795230662_2_alg».proof.Proof.Gen.KernelIdeal
import proofs.«181428_j80736795230662_2_alg».proof.Proof.Gen.KernelIdeal.Frame
import proofs.«181428_j80736795230662_2_alg».proof.Proof.Gen.ReferenceIdeal
import proofs.«181428_j80736795230662_2_alg».proof.Proof.Gen.Pre_finite_inputs
import proofs.«181428_j80736795230662_2_alg».proof.Proof.KernelArray
import proofs.«181428_j80736795230662_2_alg».proof.Proof.RefSynth
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the synthesis of their arguments, and the arguments agree. -/
theorem algebraic : Cert.algebraic_KernelIdeal_ReferenceIdeal := by
  intro m ρ m' ρ' _ hagree
  refine ⟨fun c => Cert.Haar.synth4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Haar.Array.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, Cert.Haar.Ref.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
